-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩
abbrev S1600000x64 : Shape := ⟨2, ![1600000, 64]⟩

abbrev nBuf : Space → Nat
  | .hbm => 46
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x64, .f32⟩
  | .hbm, ⟨28, _⟩ => ⟨S1x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S1x64, .f32⟩
  | .hbm, ⟨45, _⟩ => ⟨S1x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S2000x64_S2000x64 : S2000x64.ShapeCasts S2000x64
  reduces_S2000x64_S64 : S2000x64.Reduces [0] S64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S64, .f32⟩
  | .hbm, ⟨69, _⟩ => ⟨S1x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S64_d0 : S100000x64.ReducesTo [0] S64
  h_S_ : 0 < S_.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result named.

  The program is two pallas_calls among stretches of host operations. The memory at each boundary is a fold from the
  launch memory: after the first stretch, after the first call (its arrays at what the write-backs leave), after the
  second stretch, after the second call. Every weakly fair execution terminates without a fault, and at the end each
  unscoped buffer holds the last boundary's contents; in particular the result buffer holds that boundary's contents
  at the result, and every argument is unchanged.
-/
import proofs.«115259_j75634374083203_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the memory `m` terminates, nothing faulting, with the result
    buffer at the last boundary's contents and every argument as launched. -/
theorem run : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.KernelHost.lean ====
/-
  What the two pallas_calls find in their operands' arrays.

  Before the first call the host has taken the two rows of the edge list (sources and targets), wrapped negative
  sources by the number of nodes, gathered the source rows of the features and added them into the targets' rows of
  a zero array (the aggregation), and reshaped the two bias vectors into one-row matrices. Between the calls it does
  the same with the first call's result in place of the features. The arguments themselves are never written.
-/
import proofs.«115259_j75634374083203_1_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- The edge list: row 0 the sources, row 1 the targets. -/
abbrev EdgeT := (⟨S2x1600000, .i32⟩ : BufTy).Contents (Elt Ideal)

/-- The edge sources, a negative one wrapped by adding the number of nodes, as a column of start indices. -/
def srcIdx (e : EdgeT) : (⟨S1600000x1, .i32⟩ : BufTy).Contents (Elt Ideal) :=
  broadcastInDim S1600000x1 ![0] bcast_S1600000_S1600000x1_0
    (select
      (cmpi .slt (shapeCast _ (extractStridedSlice S1x1600000 ![0, 0] e slices_S2x1600000_S1x1600000_0_0) shapeCasts_S1x1600000_S1600000)
        (broadcastInDim S1600000 ![] bcast_S_S1600000 (constantI S_ 32 0#32)))
      (addi (shapeCast _ (extractStridedSlice S1x1600000 ![0, 0] e slices_S2x1600000_S1x1600000_0_0) shapeCasts_S1x1600000_S1600000)
        (broadcastInDim S1600000 ![] bcast_S_S1600000 (constantI S_ 32 100000#32)))
      (shapeCast _ (extractStridedSlice S1x1600000 ![0, 0] e slices_S2x1600000_S1x1600000_0_0) shapeCasts_S1x1600000_S1600000))

/-- The edge targets as a column of scatter indices. -/
def dstIdx (e : EdgeT) : (⟨S1600000x1, .i32⟩ : BufTy).Contents (Elt Ideal) :=
  broadcastInDim S1600000x1 ![0] bcast_S1600000_S1600000x1_0
    (shapeCast _ (extractStridedSlice S1x1600000 ![1, 0] e slices_S2x1600000_S1x1600000_1_0) shapeCasts_S1x1600000_S1600000)

/-- Row i of the result is the sum, over the edges whose target is i, of the source's row of `x` (128 columns). -/
def agg128 (x : (⟨S100000x128, .f32⟩ : BufTy).Contents (Elt Ideal)) (e : EdgeT) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) (dstIdx e)
    (Host.gather gather_S100000x128_S1600000x1_S1600000x128_1_0_n_n_0_1_1128 x (srcIdx e))

/-- The same for an array of 64 columns. -/
def agg64 (h : (⟨S100000x64, .f32⟩ : BufTy).Contents (Elt Ideal)) (e : EdgeT) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32)) (dstIdx e)
    (Host.gather gather_S100000x64_S1600000x1_S1600000x64_1_0_n_n_0_1_164 h (srcIdx e))

variable (m : (ℓ : Loc nD τ sig) → Buf (Elt Ideal) ℓ) (ρ : Dev nD → PrngReg)

/-! ## The first call's operands -/

theorem entry0_agg (c : Dev nD) :
    V1 m ρ c main_v13 = agg128 (m ((c : Thread nD τ).loc main_arg0)) (m ((c : Thread nD τ).loc main_arg1)) := by
  show StableHlo.after hostOps0 (W0 m ρ c) (Proc.devRef .tc main_v13) = _
  after_results
  rfl

theorem entry0_x (c : Dev nD) : V1 m ρ c main_arg0 = m ((c : Thread nD τ).loc main_arg0) := by
  show StableHlo.after hostOps0 (W0 m ρ c) (Proc.devRef .tc main_arg0) = _
  after_results

theorem entry0_w1a (c : Dev nD) : V1 m ρ c main_arg2 = m ((c : Thread nD τ).loc main_arg2) := by
  show StableHlo.after hostOps0 (W0 m ρ c) (Proc.devRef .tc main_arg2) = _
  after_results

theorem entry0_w1b (c : Dev nD) : V1 m ρ c main_arg4 = m ((c : Thread nD τ).loc main_arg4) := by
  show StableHlo.after hostOps0 (W0 m ρ c) (Proc.devRef .tc main_arg4) = _
  after_results

theorem entry0_b1a (c : Dev nD) :
    V1 m ρ c main_v14 = shapeCast S1x64 (m ((c : Thread nD τ).loc main_arg3)) shapeCasts_S64_S1x64 := by
  show StableHlo.after hostOps0 (W0 m ρ c) (Proc.devRef .tc main_v14) = _
  after_results
  rfl

theorem entry0_b1b (c : Dev nD) :
    V1 m ρ c main_v15 = shapeCast S1x64 (m ((c : Thread nD τ).loc main_arg5)) shapeCasts_S64_S1x64 := by
  show StableHlo.after hostOps0 (W0 m ρ c) (Proc.devRef .tc main_v15) = _
  after_results
  rfl

/-! ## The second call's operands -/

/-- The first call writes only its result array: the edge sources and targets the first stretch computed are still
    there when the second stretch reads them. -/
theorem mid_src (c : Dev nD) :
    W2 m ρ c (Proc.devRef .tc main_v1)
      = shapeCast S1600000 (extractStridedSlice S1x1600000 ![0, 0] (m ((c : Thread nD τ).loc main_arg1)) slices_S2x1600000_S1x1600000_0_0) shapeCasts_S1x1600000_S1600000 := by
  refine (W2_of_ne m ρ c main_v1 (by decide)).trans ?_
  show StableHlo.after hostOps0 (W0 m ρ c) (Proc.devRef .tc main_v1) = _
  after_results
  rfl

theorem mid_dst (c : Dev nD) :
    W2 m ρ c (Proc.devRef .tc main_v3)
      = shapeCast S1600000 (extractStridedSlice S1x1600000 ![1, 0] (m ((c : Thread nD τ).loc main_arg1)) slices_S2x1600000_S1x1600000_1_0) shapeCasts_S1x1600000_S1600000 := by
  refine (W2_of_ne m ρ c main_v3 (by decide)).trans ?_
  show StableHlo.after hostOps0 (W0 m ρ c) (Proc.devRef .tc main_v3) = _
  after_results
  rfl

/-- An argument is as launched when the second stretch reads it. -/
theorem mid_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results
theorem mid_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results
theorem mid_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results
theorem mid_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results

/-- The second call reads the first call's result array as the first call left it. -/
theorem entry1_h (c : Dev nD) : V3 m ρ c main_v16 = W2 m ρ c (Proc.devRef .tc main_v16) := by
  show StableHlo.after hostOps1 (W2 m ρ c) (Proc.devRef .tc main_v16) = _
  after_results

theorem entry1_agg (c : Dev nD) :
    V3 m ρ c main_v26 = agg64 (W2 m ρ c (Proc.devRef .tc main_v16)) (m ((c : Thread nD τ).loc main_arg1)) := by
  show StableHlo.after hostOps1 (W2 m ρ c) (Proc.devRef .tc main_v26) = _
  after_results
  rw [mid_src, mid_dst]
  rfl

theorem entry1_w2a (c : Dev nD) : V3 m ρ c main_arg6 = m ((c : Thread nD τ).loc main_arg6) := by
  show StableHlo.after hostOps1 (W2 m ρ c) (Proc.devRef .tc main_arg6) = _
  after_results
  exact mid_arg6 m ρ c

theorem entry1_w2b (c : Dev nD) : V3 m ρ c main_arg8 = m ((c : Thread nD τ).loc main_arg8) := by
  show StableHlo.after hostOps1 (W2 m ρ c) (Proc.devRef .tc main_arg8) = _
  after_results
  exact mid_arg8 m ρ c

theorem entry1_b2a (c : Dev nD) :
    V3 m ρ c main_v27 = shapeCast S1x64 (m ((c : Thread nD τ).loc main_arg7)) shapeCasts_S64_S1x64 := by
  show StableHlo.after hostOps1 (W2 m ρ c) (Proc.devRef .tc main_v27) = _
  after_results
  rw [mid_arg7]
  rfl

theorem entry1_b2b (c : Dev nD) :
    V3 m ρ c main_v28 = shapeCast S1x64 (m ((c : Thread nD τ).loc main_arg9)) shapeCasts_S64_S1x64 := by
  show StableHlo.after hostOps1 (W2 m ρ c) (Proc.devRef .tc main_v28) = _
  after_results
  rw [mid_arg9]
  rfl

end Cert.KernelIdeal.HostValue

end
-- ==== Proof.Spec.lean ====
/-
  The two-layer graph network, entry by entry, on the extended reals.

  A node's row is first added to the sum of its in-neighbours' rows (the aggregation, which both programs compute
  by the same host operations and which is therefore a parameter here). A row then passes through two affine maps,
  each followed, where the network has one, by a maximum with zero:

    first convolution  : q ↦ max (Σ_k max (Σ_l (x_l + a_l) · W1a(l,k) + b1a_k) 0 · W1b(k,q) + b1b_q) 0
    second convolution : q ↦      Σ_k max (Σ_l (h_l + a_l) · W2a(l,k) + b2a_k) 0 · W2b(k,q) + b2b_q

  and the network's result is the sum over all nodes of the second convolution's rows. Everything is stated for one
  row, as a function of that row's coordinates, so that the same definition describes a block of rows and the whole
  array. The zero of the maxima is kept as the value of the all-zero 32-bit word.
-/
import Idealize.ShloMosaic.PureOps.Ideal
import Idealize.ShloMosaic.Lib.ValueIdx

noncomputable section

open scoped BigOperators

namespace Cert.Gin

open Idealize.ShloMosaic Idealize.ShloMosaic.ValueIdx

/-- The value of the all-zero 32-bit word: the threshold of the maxima. -/
abbrev zeroWord : EReal := Ideal.ofBits .f32 0x00000000#32

/-- One row of the first convolution's result: the row `x + a` through W1a, b1a, a maximum with zero, W1b, b1b, and
    a second maximum with zero. -/
def conv1Row (x a : Fin 128 → EReal) (w1a : Fin 128 → Fin 64 → EReal) (b1a : Fin 64 → EReal)
    (w1b : Fin 64 → Fin 64 → EReal) (b1b : Fin 64 → EReal) (q : Fin 64) : EReal :=
  max ((∑ k : Fin 64, max ((∑ l : Fin 128, (x l + a l) * w1a l k) + b1a k) zeroWord * w1b k q) + b1b q) zeroWord

/-- One row of the second convolution's result: the row `h + a` through W2a, b2a, a maximum with zero, W2b, b2b
    (no maximum after the last affine map). -/
def conv2Row (h a : Fin 64 → EReal) (w2a : Fin 64 → Fin 64 → EReal) (b2a : Fin 64 → EReal)
    (w2b : Fin 64 → Fin 64 → EReal) (b2b : Fin 64 → EReal) (q : Fin 64) : EReal :=
  (∑ k : Fin 64, max ((∑ l : Fin 64, (h l + a l) * w2a l k) + b2a k) zeroWord * w2b k q) + b2b q

/-- A function of a row and a column coordinate as a function of a two-axis index. -/
def arr2 {A B : Nat} (f : Fin A → Fin B → EReal) : (⟨2, ![A, B]⟩ : Shape).Idx → EReal :=
  fun j => f (j 0) (j 1)

theorem arr2_ix2 {A B : Nat} (f : Fin A → Fin B → EReal) (p : Fin A) (q : Fin B) : arr2 f (ix2 p q) = f p q := rfl

/-- The first convolution on the whole node array: row r of the result is `conv1Row` of row r of the features `x`
    and row r of the aggregated neighbours `a`. The biases are functions of the column. -/
def hidden (x a : FVec Ideal ⟨2, ![100000, 128]⟩ .f32) (w1a : FVec Ideal ⟨2, ![128, 64]⟩ .f32) (b1a : Fin 64 → EReal)
    (w1b : FVec Ideal ⟨2, ![64, 64]⟩ .f32) (b1b : Fin 64 → EReal) : FVec Ideal ⟨2, ![100000, 64]⟩ .f32 :=
  arr2 fun r q => conv1Row (fun l => x (ix2 r l)) (fun l => a (ix2 r l)) (fun l k => w1a (ix2 l k)) b1a
    (fun k j => w1b (ix2 k j)) b1b q

/-- The second convolution summed over all nodes: column q of the one-row result is the sum over the 100000 rows r of
    `conv2Row` of row r of the hidden features `h` and row r of their aggregated neighbours `a`. -/
def pooled (h a : FVec Ideal ⟨2, ![100000, 64]⟩ .f32) (w2a : FVec Ideal ⟨2, ![64, 64]⟩ .f32) (b2a : Fin 64 → EReal)
    (w2b : FVec Ideal ⟨2, ![64, 64]⟩ .f32) (b2b : Fin 64 → EReal) : FVec Ideal ⟨2, ![1, 64]⟩ .f32 :=
  arr2 fun _ q => ∑ r : Fin 100000, conv2Row (fun l => h (ix2 r l)) (fun l => a (ix2 r l)) (fun l k => w2a (ix2 l k)) b2a
    (fun k j => w2b (ix2 k j)) b2b q

/-- The sum over all 100000 rows is the sum over the 50 blocks of the sums over each block's 2000 rows. -/
theorem sum_blocks (f : Fin 100000 → EReal) :
    (∑ r : Fin 100000, f r)
      = ∑ t : Fin 50, ∑ i : Fin 2000, f ⟨2000 * t.val + i.val, by have := t.isLt; have := i.isLt; omega⟩ := by
  rw [← Finset.sum_product', Finset.univ_product_univ]
  exact (Fintype.sum_equiv (finProdFinEquiv (m := 50) (n := 2000)) _ _ (fun ti => by
    refine congrArg f (Fin.ext ?_)
    show 2000 * ti.1.val + ti.2.val = (finProdFinEquiv ti).val
    rw [finProdFinEquiv_apply_val]; omega)).symm

end Cert.Gin

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Conv1Block.lean ====
/-
  One block of the first convolution, entry by entry.

  The first kernel's body receives a block of 2000 rows of the node features, the same rows of the aggregated
  neighbours, and the four parameter arrays, and stores one [2000, 64] block. On the extended reals a change of
  float format is the identity and a product into the zero accumulator is the plain sum of products, so the body is
  two affine layers, each followed by a maximum with zero: an entry (p, q) of the stored block depends only on row p
  of the two row blocks, and it is the specification's row function applied to that row.

  The two layers have the same form, so the layer is read once, for any inner extent K: a [2000, K] operand times a
  [K, 64] matrix, plus a one-row bias repeated over the 2000 rows, against zero.
-/
import proofs.«115259_j75634374083203_1_alg».proof.Proof.Gen.KernelIdeal.Skeleton
import proofs.«115259_j75634374083203_1_alg».proof.Proof.Spec
import proofs.«115259_j75634374083203_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Conv1

open Idealize.ShloMosaic Idealize.ShloMosaic.ValueIdx

/-- The first product's dimension numbers are the plain ones: [2000, 128] by [128, 64], contracting the operands'
    shared axis of extent 128. -/
theorem dims_first : dot_S2000x128_S128x64_S2000x64_1_0_0_1_n_n = DotDims.plain 2000 128 64 := rfl

/-- The second product's dimension numbers are the plain ones: [2000, 64] by [64, 64]. -/
theorem dims_second : dot_S2000x64_S64x64_S2000x64_1_0_0_1_n_n = DotDims.plain 2000 64 64 := rfl

/-- The zero the maxima are taken against is the value of the all-zero word. -/
theorem zero_scalar : (Scalar.ofBits (F := Ideal) .f32 0x00000000#32 : Ideal .f32) = Cert.Gin.zeroWord := rfl

/-- One layer at entry (p, q): the sum over k of u (p, k) · w (k, q), plus the bias's one row at q, against zero. The
    bias arrives as a [1, 64] array, is cast to its own shape (nothing moves) and its row is repeated over the 2000
    rows, so at (p, q) it reads its entry (0, q). -/
theorem layer_apply {K : Nat} {φ₁ φ₂ : FTy} (D : DotDims ⟨2, ![2000, K]⟩ ⟨2, ![K, 64]⟩ ⟨2, ![2000, 64]⟩)
    (hD : D = DotDims.plain 2000 K 64) (u : FVec Ideal ⟨2, ![2000, K]⟩ φ₁) (w : FVec Ideal ⟨2, ![K, 64]⟩ φ₂)
    (b : FVec Ideal ⟨2, ![1, 64]⟩ .f32) (hc : (⟨2, ![1, 64]⟩ : Shape).ShapeCasts ⟨2, ![1, 64]⟩)
    (hb : (⟨2, ![1, 64]⟩ : Shape).Broadcasts ⟨2, ![2000, 64]⟩) (p : Fin 2000) (q : Fin 64) :
    maximumf
        (addf (matmul D none u w (constant (F := Ideal) ⟨2, ![2000, 64]⟩ .f32 0x00000000#32))
          (broadcastTo ⟨2, ![2000, 64]⟩ (shapeCast ⟨2, ![1, 64]⟩ b hc) hb))
        (broadcast ⟨2, ![2000, 64]⟩ (Scalar.ofBits (F := Ideal) .f32 0x00000000#32)) (ix2 p q)
      = max ((∑ k : Fin K, u (ix2 p k) * w (ix2 k q)) + b (ix2 0 q)) Cert.Gin.zeroWord := by
  subst hD
  rw [maximumf_apply, addf_apply, broadcast_apply, zero_scalar, broadcastTo_1b_ab_apply, shapeCast_self]
  exact congrArg (fun s => max (s + b (ix2 0 q)) Cert.Gin.zeroWord)
    (Cert.LibPlainDot.matmul_zero_apply none u w p q)

/-- Entry (p, q) of the block the body stores is the first convolution's row function of row p of the feature block
    and row p of the neighbour block. The inner layer's operand is the sum of the two row blocks, entry by entry;
    the outer layer's operand is the inner layer's result. -/
theorem block_apply (x0 x1 : Vec Ideal S2000x128 .f32) (x2 : Vec Ideal S128x64 .f32) (x3 : Vec Ideal S1x64 .f32)
    (x4 : Vec Ideal S64x64 .f32) (x5 : Vec Ideal S1x64 .f32) (p : Fin 2000) (q : Fin 64) :
    Gen.k0_pay1 (F := Ideal) x0 x1 x2 x3 x4 x5 (ix2 p q)
      = Cert.Gin.conv1Row (fun l => x0 (ix2 p l)) (fun l => x1 (ix2 p l)) (fun l k => x2 (ix2 l k))
          (fun k => x3 (ix2 0 k)) (fun k j => x4 (ix2 k j)) (fun k => x5 (ix2 0 k)) q := by
  unfold Gen.k0_pay1 Cert.Gin.conv1Row
  refine (layer_apply (K := 64) _ dims_second _ _ x5 _ _ p q).trans ?_
  refine congrArg (fun s => max (s + x5 (ix2 0 q)) Cert.Gin.zeroWord) (Finset.sum_congr rfl fun k _ => ?_)
  refine congrArg (fun s => s * x4 (ix2 k q)) ?_
  refine (layer_apply (K := 128) _ dims_first _ _ x3 _ _ p k).trans ?_
  rw [shapeCast_self]
  rfl

end Cert.KernelIdeal.Conv1

end
-- ==== Proof.Conv1Array.lean ====
/-
  From the blocks of the first convolution to its whole result array.

  The first kernel runs over 50 grid points. At point t it is handed rows 2000 t .. 2000 t + 1999 of the node
  features and of the aggregated neighbours, and the four parameter arrays whole (their block index is (0, 0) at
  every point), and it writes its [2000, 64] result back as rows 2000 t .. 2000 t + 1999 of the [100000, 64] output.
  An entry of the stored block depends only on its own row of the two row blocks, and that row is a row of the
  arrays; so what point t writes back is block t of ONE function of the arrays, the specification's `hidden`. Every
  row r lies in the block of exactly the point r / 2000, and every point writes back, so after the last point the
  output array is that function everywhere.

  Everything is stated at arbitrary contents `V` of the buffers when the region is entered.
-/
import proofs.«115259_j75634374083203_1_alg».proof.Proof.Gen.KernelIdeal.Frame
import proofs.«115259_j75634374083203_1_alg».proof.Proof.Conv1Block
import proofs.«115259_j75634374083203_1_alg».proof.Proof.Spec

noncomputable section

open scoped BigOperators

namespace Cert.KernelIdeal.Conv1

open Idealize.ShloMosaic Idealize.ShloMosaic.ValueIdx Idealize.ShloMosaic.TcCoe
open Idealize.ShloMosaic.Pipeline (Dat)

/-- The body reads and writes each of its buffers whole: from the origin. -/
theorem origin : (![0, 0] : Fin 2 → Nat) = fun _ => 0 := funext fun a => by fin_cases a <;> rfl

/-- Which block each window is on at point t, decided over the 50 points: the two row inputs and the output are on
    block (t, 0); the four parameter arrays stay on block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## One entry, over arbitrary blocks and arrays -/

/-- If the two row blocks hold rows n · 2000 + p of two arrays and the four parameter blocks are the parameter arrays,
    then entry y of the body's result is the first convolution of the arrays at the entry i of the output array that
    lies in row n · 2000 + (row of y) and in y's column. -/
theorem entry_eq (A0 A1 : FVec Ideal S100000x128 .f32) (A2 : FVec Ideal S128x64 .f32) (A3 : FVec Ideal S1x64 .f32)
    (A4 : FVec Ideal S64x64 .f32) (A5 : FVec Ideal S1x64 .f32)
    (x0 x1 : Vec Ideal S2000x128 .f32) (x2 : Vec Ideal S128x64 .f32) (x3 : Vec Ideal S1x64 .f32)
    (x4 : Vec Ideal S64x64 .f32) (x5 : Vec Ideal S1x64 .f32) (n : Nat)
    (h0 : ∀ (p : Fin 2000) (l : Fin 128) (r : Fin 100000), r.val = n * 2000 + p.val → x0 (ix2 p l) = A0 (ix2 r l))
    (h1 : ∀ (p : Fin 2000) (l : Fin 128) (r : Fin 100000), r.val = n * 2000 + p.val → x1 (ix2 p l) = A1 (ix2 r l))
    (h2 : x2 = A2) (h3 : x3 = A3) (h4 : x4 = A4) (h5 : x5 = A5)
    (y : S2000x64.Idx) (i : S100000x64.Idx) (hi0 : (i 0).val = n * 2000 + (y 0).val) (hi1 : (i 1).val = (y 1).val) :
    Gen.k0_pay1 (F := Ideal) x0 x1 x2 x3 x4 x5 y
      = Cert.Gin.hidden A0 A1 A2 (fun k => A3 (ix2 0 k)) A4 (fun k => A5 (ix2 0 k)) i := by
  obtain ⟨p, q, rfl⟩ : ∃ (p : Fin 2000) (q : Fin 64), y = ix2 p q := ⟨y 0, y 1, eq_ix2 y⟩
  obtain ⟨r, s, rfl⟩ : ∃ (r : Fin 100000) (s : Fin 64), i = ix2 r s := ⟨i 0, i 1, eq_ix2 i⟩
  have hs : s = q := Fin.ext hi1
  subst hs h2 h3 h4 h5
  rw [block_apply]
  unfold Cert.Gin.hidden
  rw [Cert.Gin.arr2_ix2]
  have r0 : (fun l => x0 (ix2 p l)) = fun l => A0 (ix2 r l) := funext fun l => h0 p l r hi0
  have r1 : (fun l => x1 (ix2 p l)) = fun l => A1 (ix2 r l) := funext fun l => h1 p l r hi0
  rw [r0, r1]

/-! ## The windows' blocks at a point, read off the arrays -/

section AtEntry

variable (V : (c : Dev nD) → (b : Ref sig .tc) → Buf (Elt Ideal) ((c : Thread nD τ).loc b))

/-- The feature block at point t holds rows t · 2000 + p of the feature array. -/
theorem features_block (c : Dev nD) (t : Fin cfg0.N) (p : Fin 2000) (l : Fin 128) (r : Fin 100000)
    (hr : r.val = t.val * 2000 + p.val) :
    (Gen.iblk0 V c 0 t : Vec Ideal S2000x128 .f32) (ix2 p l) = (V c main_arg0 : S100000x128.Idx → EReal) (ix2 r l) := by
  obtain ⟨e0, e1, -⟩ := block_index t
  show (V c main_arg0 : S100000x128.Idx → EReal) (((cfg0.win 0).blk t).view.emb (ix2 p l)) = _
  refine congrArg (V c main_arg0 : S100000x128.Idx → EReal) (funext fun a => Fin.ext ?_)
  match a with
  | ⟨0, _⟩ => show win0_0.index t (0 : Fin 2) * 2000 + 1 * p.val = r.val; omega
  | ⟨1, _⟩ => show win0_0.index t (1 : Fin 2) * 128 + 1 * l.val = l.val; omega

/-- The neighbour block at point t holds rows t · 2000 + p of the aggregated-neighbour array. -/
theorem neighbours_block (c : Dev nD) (t : Fin cfg0.N) (p : Fin 2000) (l : Fin 128) (r : Fin 100000)
    (hr : r.val = t.val * 2000 + p.val) :
    (Gen.iblk0 V c 1 t : Vec Ideal S2000x128 .f32) (ix2 p l) = (V c main_v13 : S100000x128.Idx → EReal) (ix2 r l) := by
  obtain ⟨-, -, e0, e1, -⟩ := block_index t
  show (V c main_v13 : S100000x128.Idx → EReal) (((cfg0.win 1).blk t).view.emb (ix2 p l)) = _
  refine congrArg (V c main_v13 : S100000x128.Idx → EReal) (funext fun a => Fin.ext ?_)
  match a with
  | ⟨0, _⟩ => show win0_1.index t (0 : Fin 2) * 2000 + 1 * p.val = r.val; omega
  | ⟨1, _⟩ => show win0_1.index t (1 : Fin 2) * 128 + 1 * l.val = l.val; omega

/-- The first weight matrix's block is the matrix, at every point. -/
theorem w1a_block (c : Dev nD) (t : Fin cfg0.N) :
    (Gen.iblk0 V c 2 t : Vec Ideal S128x64 .f32) = (V c main_arg2 : S128x64.Idx → EReal) := by
  obtain ⟨-, -, -, -, e0, e1, -⟩ := block_index t
  funext y
  show (V c main_arg2 : S128x64.Idx → EReal) (((cfg0.win 2).blk t).view.emb y) = _
  refine congrArg (V c main_arg2 : S128x64.Idx → EReal) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The first bias's block is its one row, at every point. -/
theorem b1a_block (c : Dev nD) (t : Fin cfg0.N) :
    (Gen.iblk0 V c 3 t : Vec Ideal S1x64 .f32) = (V c main_v14 : S1x64.Idx → EReal) := by
  obtain ⟨-, -, -, -, -, -, e0, e1, -⟩ := block_index t
  funext y
  show (V c main_v14 : S1x64.Idx → EReal) (((cfg0.win 3).blk t).view.emb y) = _
  refine congrArg (V c main_v14 : S1x64.Idx → EReal) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The second weight matrix's block is the matrix, at every point. -/
theorem w1b_block (c : Dev nD) (t : Fin cfg0.N) :
    (Gen.iblk0 V c 4 t : Vec Ideal S64x64 .f32) = (V c main_arg4 : S64x64.Idx → EReal) := by
  obtain ⟨-, -, -, -, -, -, -, -, e0, e1, -⟩ := block_index t
  funext y
  show (V c main_arg4 : S64x64.Idx → EReal) (((cfg0.win 4).blk t).view.emb y) = _
  refine congrArg (V c main_arg4 : S64x64.Idx → EReal) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The second bias's block is its one row, at every point. -/
theorem b1b_block (c : Dev nD) (t : Fin cfg0.N) :
    (Gen.iblk0 V c 5 t : Vec Ideal S1x64 .f32) = (V c main_v15 : S1x64.Idx → EReal) := by
  obtain ⟨-, -, -, -, -, -, -, -, -, -, e0, e1, -⟩ := block_index t
  funext y
  show (V c main_v15 : S1x64.Idx → EReal) (((cfg0.win 5).blk t).view.emb y) = _
  refine congrArg (V c main_v15 : S1x64.Idx → EReal) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Entry y of the output's block at point t is the array's entry in row t · 2000 + (row of y) -/
theorem out_row (t : Fin cfg0.N) (y : S2000x64.Idx) :
    ((((cfg0.win 6).blk t).view.emb y : S100000x64.Idx) 0).val = t.val * 2000 + (y 0).val := by
  obtain ⟨-, -, -, -, -, -, -, -, -, -, -, -, e0, -⟩ := block_index t
  show win0_6.index t (0 : Fin 2) * 2000 + 1 * (y 0).val = _
  omega

/-- and in y's column. -/
theorem out_col (t : Fin cfg0.N) (y : S2000x64.Idx) :
    ((((cfg0.win 6).blk t).view.emb y : S100000x64.Idx) 1).val = (y 1).val := by
  obtain ⟨-, -, -, -, -, -, -, -, -, -, -, -, -, e1⟩ := block_index t
  show win0_6.index t (1 : Fin 2) * 64 + 1 * (y 1).val = _
  omega

/-! ## What a point writes back, the cover, and the array -/

/-- The first convolution of the arrays as the region finds them. -/
abbrev target (c : Dev nD) : FVec Ideal S100000x64 .f32 :=
  Cert.Gin.hidden (V c main_arg0) (V c main_v13) (V c main_arg2) (fun k => (V c main_v14 : S1x64.Idx → EReal) (ix2 0 k))
    (V c main_arg4) (fun k => (V c main_v15 : S1x64.Idx → EReal) (ix2 0 k))

/-- What point t writes back is block t of the first convolution of the arrays. -/
theorem flushed_eq (c : Dev nD) (t : Fin cfg0.N) :
    (Gen.dat0 (F := Ideal) V c).flushed 6 t = ((cfg0.win 6).blk t).view.read (Elt Ideal) (target V c) := by
  show (cfg0.win 6).cut (grid0.coords t) ((Gen.dat0 V c).after 6 t) = _
  rw [Gen.after0_6]
  unfold Gen.out0_6
  rw [View.canon_unit_zero origin]
  simp only [View.ld_unit_zero (S := S2000x128) origin, View.ld_unit_zero (S := S128x64) origin,
    View.ld_unit_zero (S := S1x64) origin, View.ld_unit_zero (S := S64x64) origin]
  funext y
  exact entry_eq (V c main_arg0) (V c main_v13) (V c main_arg2) (V c main_v14) (V c main_arg4) (V c main_v15)
    (Gen.iblk0 V c 0 t) (Gen.iblk0 V c 1 t) (Gen.iblk0 V c 2 t) (Gen.iblk0 V c 3 t) (Gen.iblk0 V c 4 t)
    (Gen.iblk0 V c 5 t) t.val (features_block V c t) (neighbours_block V c t) (w1a_block V c t) (b1a_block V c t)
    (w1b_block V c t) (b1b_block V c t) y (((cfg0.win 6).blk t).view.emb y) (out_row t y) (out_col t y)

/-- An entry of the output array is in point t's block iff, on each axis, its coordinate is in the block's range. -/
theorem mem_block (t : Fin cfg0.N) (i : S100000x64.Idx) :
    i ∈ ((cfg0.win 6).blk t).view.set
      ↔ ∀ a : Fin 2, win0_6.index t a * S2000x64.size a ≤ (i a).val
          ∧ (i a).val < win0_6.index t a * S2000x64.size a + S2000x64.size a := by
  show i ∈ ((View.whole main_v16).slice (win0_6.rect t)).set ↔ _
  rw [View.set_slice_whole, Rect.mem_set_unit]
  exact Iff.rfl

/-- Every entry of the output array is written back by some point: the entry in row r by point r / 2000. -/
theorem covered (i : S100000x64.Idx) :
    ∃ t : Fin cfg0.N, (cfg0.win 6).flush t = true ∧ i ∈ ((cfg0.win 6).blk t).view.set := by
  have hN : grid0.N = 50 := Gen.N_0
  have hi0 : (i 0).val < 100000 := (i 0).isLt
  have hi1 : (i 1).val < 64 := (i 1).isLt
  have ht : (i 0).val / 2000 < grid0.N := by rw [hN]; omega
  obtain ⟨-, -, -, -, -, -, -, -, -, -, -, -, e0, e1⟩ := block_index ⟨(i 0).val / 2000, ht⟩
  refine ⟨⟨(i 0).val / 2000, ht⟩, Gen.flush0_6 _, ?_⟩
  rw [mem_block]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, ht⟩ (1 : Fin 2) * 64 ≤ (i 1).val
      ∧ (i 1).val < win0_6.index ⟨(i 0).val / 2000, ht⟩ (1 : Fin 2) * 64 + 64
    rw [e1]
    omega

/-- After the region the output array is the first convolution of the feature array and the aggregated neighbours,
    through the two weight matrices and the two biases' rows, as the region found them. -/
theorem final (c : Dev nD) :
    ((Gen.dat0 (F := Ideal) V c).arrAt 6 cfg0.N : S100000x64.Idx → EReal)
      = Cert.Gin.hidden (V c main_arg0) (V c main_v13) (V c main_arg2)
          (fun k => (V c main_v14 : S1x64.Idx → EReal) (ix2 0 k)) (V c main_arg4)
          (fun k => (V c main_v15 : S1x64.Idx → EReal) (ix2 0 k)) :=
  (Gen.dat0 (F := Ideal) V c).arrAt_eq_of_cover 6 (target V c) (fun t _ => flushed_eq V c t) covered

end AtEntry

end Cert.KernelIdeal.Conv1

end
-- ==== Proof.PoolBlock.lean ====
/-
  One grid point of the pooling kernel, read at a column of its one-row result.

  A point holds 2000 rows of the hidden features and of their aggregated neighbours. The body adds the two, passes
  each row through the first affine map (the weights W2a, the bias b2a), takes the maximum with zero, passes the
  result through the second affine map (W2b, b2b), sums the 2000 resulting rows column by column, and adds that
  column sum to what the one-row block held before. The changes of float format on the way into the two products
  are the identity on the extended reals, and a product into the zero accumulator is the plain sum of products.
  So the new block, at column q, is the old block at q plus the sum over the point's rows of the second
  convolution's row at q. At the first point the old block is the block of zeros the body has just stored.
-/
import proofs.«115259_j75634374083203_1_alg».proof.Proof.Gen.KernelIdeal.Skeleton
import proofs.«115259_j75634374083203_1_alg».proof.Proof.Spec
import proofs.«115259_j75634374083203_1_alg».proof.Proof.LibPlainDot
import Idealize.ShloMosaic.Lib.ValueLayout
import Idealize.ShloMosaic.Lib.Pipeline.Value

noncomputable section

open scoped BigOperators

namespace Cert.KernelIdeal.Pool

open Idealize.ShloMosaic Idealize.ShloMosaic.ValueIdx Cert.KernelIdeal Cert.KernelIdeal.Gen Cert.Gin

/-- The block of zeros the first point stores holds the zero word's value at every column. -/
theorem zeros_apply (j : S1x64.Idx) : (k1_pay1 (F := Ideal) : S1x64.Idx → EReal) j = zeroWord := rfl

/-- The zero word denotes 0, so adding its value on the left changes nothing. -/
theorem zeroWord_add (s : EReal) : zeroWord + s = s := by
  show Ideal.ofBits .f32 0x00000000#32 + s = s
  rw [Ideal.ofBits_zero_f32, zero_add]

/-- One affine map on a block of 2000 rows: the product with a [64, 64] matrix into the zero accumulator, plus a
    one-row bias repeated down the rows. At row i and column q it is the sum over k of x (i, k) · w (k, q), plus
    the bias at q. -/
theorem affine_apply (x : FVec Ideal S2000x64 .bf16) (w : FVec Ideal S64x64 .bf16) (b : Vec Ideal S1x64 .f32)
    (i : Fin 2000) (q : Fin 64) :
    (addf (matmul dot_S2000x64_S64x64_S2000x64_1_0_0_1_n_n none x w (constant (F := Ideal) S2000x64 .f32 0x00000000#32))
        (broadcastTo S2000x64 (shapeCast S1x64 b shapeCasts_S1x64_S1x64) broadcasts_S1x64_S2000x64)
        : S2000x64.Idx → EReal) (ix2 i q)
      = (∑ k : Fin 64, x (ix2 i k) * w (ix2 k q)) + (b : S1x64.Idx → EReal) (ix2 0 q) :=
  congrArg₂ (fun s t : EReal => s + t)
    (Cert.LibPlainDot.matmul_zero_apply (M := 2000) (K := 64) (N := 64) none x w i q)
    ((broadcastTo_1b_ab_apply (shapeCast S1x64 b shapeCasts_S1x64_S1x64) broadcasts_S1x64_S2000x64 i q).trans
      (congrFun (shapeCast_self b shapeCasts_S1x64_S1x64) (ix2 0 q)))

/-- The sum down the rows of a block of 2000 rows, at column q: the source index over column q with row i put
    back is (i, q). -/
theorem colsum_apply (src : FVec Ideal S2000x64 .f32) (hφ : FKind.Formats .f32)
    (hacc : (0x00000000#32 : BitVec 32) = FKind.add.neutral .f32 hφ) (q : Fin 64) :
    multiReduction .add [0] S64 src 0x00000000#32 reduces_S2000x64_S64 hφ hacc (ix1 q) = ∑ i : Fin 2000, src (ix2 i q) := by
  refine (Ideal.multiReduction_add_single src 0x00000000#32 reduces_S2000x64_S64 hφ hacc (ix1 q)).trans ?_
  refine Finset.sum_congr rfl fun i _ => congrArg src (funext fun a => ?_)
  match a with
  | ⟨0, _⟩ => rfl
  | ⟨1, _⟩ => rfl

/-- The accumulated block at column q: what the block held before at q, plus the sum over the point's 2000 rows
    of the second convolution's row at q. The arguments are the point's blocks of hidden features and aggregated
    neighbours, the two weight matrices, the two one-row biases, and the block as it was. -/
theorem acc_apply (h a : Vec Ideal S2000x64 .f32) (w2a : Vec Ideal S64x64 .f32) (b2a : Vec Ideal S1x64 .f32)
    (w2b : Vec Ideal S64x64 .f32) (b2b : Vec Ideal S1x64 .f32) (old : Vec Ideal S1x64 .f32) (q : Fin 64) :
    (k1_pay2 (F := Ideal) h a w2a b2a w2b b2b old : S1x64.Idx → EReal) (ix2 0 q)
      = (old : S1x64.Idx → EReal) (ix2 0 q)
        + ∑ i : Fin 2000, conv2Row (fun l => (h : S2000x64.Idx → EReal) (ix2 i l)) (fun l => (a : S2000x64.Idx → EReal) (ix2 i l))
            (fun l k => (w2a : S64x64.Idx → EReal) (ix2 l k)) (fun k => (b2a : S1x64.Idx → EReal) (ix2 0 k))
            (fun k j => (w2b : S64x64.Idx → EReal) (ix2 k j)) (fun k => (b2b : S1x64.Idx → EReal) (ix2 0 k)) q := by
  unfold k1_pay2
  -- the sum of the old block (cast to its own shape) and the column sum (cast from [64] to [1, 64])
  refine congrArg₂ (fun s t : EReal => s + t) (congrFun (shapeCast_self old shapeCasts_S1x64_S1x64) (ix2 0 q)) ?_
  refine (shapeCast_a_1a_apply _ shapeCasts_S64_S1x64 (0 : Fin 1) q).trans ?_
  refine (colsum_apply _ _ _ q).trans ?_
  refine Finset.sum_congr rfl fun i _ => ?_
  -- row i: the second affine map of the maximum with zero of the first affine map of the row h + a
  refine (affine_apply _ _ b2b i q).trans ?_
  refine congrArg (fun s : EReal => s + (b2b : S1x64.Idx → EReal) (ix2 0 q)) ?_
  refine Finset.sum_congr rfl fun k _ => ?_
  refine congrArg (fun s : EReal => s * (w2b : S64x64.Idx → EReal) (ix2 k q)) ?_
  refine congrArg (fun s : EReal => max s zeroWord) ?_
  refine (affine_apply _ _ b2a i k).trans ?_
  refine congrArg (fun s : EReal => s + (b2a : S1x64.Idx → EReal) (ix2 0 k)) ?_
  refine Finset.sum_congr rfl fun l _ => ?_
  refine congrArg (fun s : EReal => s * (w2a : S64x64.Idx → EReal) (ix2 l k)) ?_
  exact congrArg₂ (fun s t : EReal => s + t) (congrFun (shapeCast_self h shapeCasts_S2000x64_S2000x64) (ix2 i l))
    (congrFun (shapeCast_self a shapeCasts_S2000x64_S2000x64) (ix2 i l))

end Cert.KernelIdeal.Pool

end
-- ==== Proof.PoolPieces.lean ====
/-
  What one grid point of the pooling kernel leaves in the staging buffer of its one-row result.

  The body's stores into that buffer were found, case by case, as a list of pieces (last store first). Read back,
  they say:

    at the first point  — the body first stores the block of zeros, then loads it back together with the six
                          input blocks, and stores the accumulated block over it: what remains is the
                          accumulated block computed from the input blocks and the block of zeros;
    at every later point — the body loads the buffer as the point before left it, and stores the accumulated
                          block computed from the input blocks and those contents.

  Each store covers the whole [1, 64] buffer at offset zero, so the last one alone decides the contents, and each
  load through the whole rectangle at offset zero reads the buffer's contents unchanged. This holds for any float
  values.
-/
import proofs.«115259_j75634374083203_1_alg».proof.Proof.Gen.KernelIdeal.Frame
import Idealize.ShloMosaic.Lib.Pipeline.Value
import Idealize.ShloMosaic.Lib.Tactic

noncomputable section

namespace Cert.KernelIdeal.Pool

open Idealize.ShloMosaic Idealize.ShloMosaic.TcCoe Idealize.SL.Sem Idealize.ShloMosaic.Tactic
open Cert.KernelIdeal Cert.KernelIdeal.Gen

variable {F : FTy → Type} [FloatOps F]

/-- The offsets of every access of the body are zero on both axes. -/
theorem offsets_zero : (![0, 0] : Fin 2 → Nat) = fun _ => 0 :=
  funext fun a => by
    match a with
    | ⟨0, _⟩ => rfl
    | ⟨1, _⟩ => rfl

/-- At the first point the buffer ends holding the accumulated block of the six input blocks and the block of
    zeros: the second store covers the first, and the load between them reads the zeros back. -/
theorem first_point (c : Dev nD) (i : grid1.Coords) (arg1 : Memref sig .tc .vmem S2000x64 .f32) (harg1 : arg1.IsWhole)
    (arg2 : Memref sig .tc .vmem S2000x64 .f32) (harg2 : arg2.IsWhole) (arg3 : Memref sig .tc .vmem S64x64 .f32) (harg3 : arg3.IsWhole)
    (arg4 : Memref sig .tc .vmem S1x64 .f32) (harg4 : arg4.IsWhole) (arg5 : Memref sig .tc .vmem S64x64 .f32) (harg5 : arg5.IsWhole)
    (arg6 : Memref sig .tc .vmem S1x64 .f32) (harg6 : arg6.IsWhole) (arg7 : Memref sig .tc .vmem S1x64 .f32) (harg7 : arg7.IsWhole) (hc0 : cond1_0 i)
    (x0 : Vec F S2000x64 .f32) (x1 : Vec F S2000x64 .f32) (x2 : Vec F S64x64 .f32) (x3 : Vec F S1x64 .f32)
    (x4 : Vec F S64x64 .f32) (x5 : Vec F S1x64 .f32) :
    out1_A_6 c i arg1 harg1 arg2 harg2 arg3 harg3 arg4 harg4 arg5 harg5 arg6 harg6 arg7 harg7 hc0 x0 x1 x2 x3 x4 x5
      = k1_pay2 x0 x1 x2 x3 x4 x5 (k1_pay1 (F := F)) := by
  unfold out1_A_6
  rw [View.read_writes_eq_canon _ _ _ (cover1_A_6 c i arg1 harg1 arg2 harg2 arg3 harg3 arg4 harg4 arg5 harg5 arg6 harg6 arg7 harg7 hc0 x0 x1 x2 x3 x4 x5)]
  unfold kernelRun1_A
  dsimp only
  sl_unfold_words
  rw [View.canon_cons_unit_zero (S := S1x64) offsets_zero, View.readCov_unit_zero (S := S1x64) _ offsets_zero]
  simp only [View.readAt_eq_ld, harg1.read_unread, harg2.read_unread, harg3.read_unread, harg4.read_unread,
    harg5.read_unread, harg6.read_unread, View.ld_unit_zero (S := S2000x64) offsets_zero,
    View.ld_unit_zero (S := S64x64) offsets_zero, View.ld_unit_zero (S := S1x64) offsets_zero]

/-- At a later point the buffer ends holding the accumulated block of the six input blocks and the buffer's
    contents `xo6` on entry: the one store covers the buffer, and its loads read the buffers' contents. -/
theorem later_point (c : Dev nD) (i : grid1.Coords) (arg1 : Memref sig .tc .vmem S2000x64 .f32) (harg1 : arg1.IsWhole)
    (arg2 : Memref sig .tc .vmem S2000x64 .f32) (harg2 : arg2.IsWhole) (arg3 : Memref sig .tc .vmem S64x64 .f32) (harg3 : arg3.IsWhole)
    (arg4 : Memref sig .tc .vmem S1x64 .f32) (harg4 : arg4.IsWhole) (arg5 : Memref sig .tc .vmem S64x64 .f32) (harg5 : arg5.IsWhole)
    (arg6 : Memref sig .tc .vmem S1x64 .f32) (harg6 : arg6.IsWhole) (arg7 : Memref sig .tc .vmem S1x64 .f32) (harg7 : arg7.IsWhole) (hc0 : ¬cond1_0 i)
    (x0 : Vec F S2000x64 .f32) (x1 : Vec F S2000x64 .f32) (x2 : Vec F S64x64 .f32) (x3 : Vec F S1x64 .f32)
    (x4 : Vec F S64x64 .f32) (x5 : Vec F S1x64 .f32) (xo6 : Vec F S1x64 .f32) :
    out1_B_6 c i arg1 harg1 arg2 harg2 arg3 harg3 arg4 harg4 arg5 harg5 arg6 harg6 arg7 harg7 hc0 x0 x1 x2 x3 x4 x5 xo6
      = k1_pay2 x0 x1 x2 x3 x4 x5 xo6 := by
  unfold out1_B_6
  rw [View.read_writes_eq_canon _ _ _ (cover1_B_6 c i arg1 harg1 arg2 harg2 arg3 harg3 arg4 harg4 arg5 harg5 arg6 harg6 arg7 harg7 hc0 x0 x1 x2 x3 x4 x5 xo6)]
  unfold kernelRun1_B
  dsimp only
  sl_unfold_words
  rw [View.canon_unit_zero (S := S1x64) offsets_zero]
  simp only [View.readAt_eq_ld, harg1.read_unread, harg2.read_unread, harg3.read_unread, harg4.read_unread,
    harg5.read_unread, harg6.read_unread, harg7.read_unread, View.ld_unit_zero (S := S2000x64) offsets_zero,
    View.ld_unit_zero (S := S64x64) offsets_zero, View.ld_unit_zero (S := S1x64) offsets_zero]

end Cert.KernelIdeal.Pool

end
-- ==== Proof.PoolSum.lean ====
/-
  The pooled result, column by column, as a sum of fifty partial sums.

  The 100000 rows are cut into fifty consecutive blocks of 2000. Block s contributes, to column q of the result,
  the sum over its rows 2000 s, ..., 2000 s + 1999 of the second convolution's row at q. The result at q is the
  sum of the fifty contributions; and the first n + 1 of them, summed, are what a running total holds after
  block n. Addition of extended reals is commutative and associative, so nothing here asks the entries to be
  finite.
-/
import proofs.«115259_j75634374083203_1_alg».proof.Proof.Spec

noncomputable section

open scoped BigOperators

namespace Cert.KernelIdeal.Pool

open Idealize.ShloMosaic Idealize.ShloMosaic.ValueIdx Cert.Gin

/-- What block s (rows 2000 s to 2000 s + 1999) contributes to column q: the sum over its rows of the second
    convolution's row at q. The block's number is a natural number below 50. -/
def blockSum (h a : FVec Ideal ⟨2, ![100000, 64]⟩ .f32) (w2a : FVec Ideal ⟨2, ![64, 64]⟩ .f32) (b2a : Fin 64 → EReal)
    (w2b : FVec Ideal ⟨2, ![64, 64]⟩ .f32) (b2b : Fin 64 → EReal) (s : ℕ) (hs : s < 50) (q : Fin 64) : EReal :=
  ∑ i : Fin 2000,
    conv2Row (fun l => h (ix2 (⟨2000 * s + i.val, by have := i.isLt; omega⟩ : Fin 100000) l))
      (fun l => a (ix2 (⟨2000 * s + i.val, by have := i.isLt; omega⟩ : Fin 100000) l))
      (fun l k => w2a (ix2 l k)) b2a (fun k j => w2b (ix2 k j)) b2b q

/-- The running total after block n: the contributions of blocks 0, ..., n. -/
def runningSum (h a : FVec Ideal ⟨2, ![100000, 64]⟩ .f32) (w2a : FVec Ideal ⟨2, ![64, 64]⟩ .f32) (b2a : Fin 64 → EReal)
    (w2b : FVec Ideal ⟨2, ![64, 64]⟩ .f32) (b2b : Fin 64 → EReal) (n : ℕ) (hn : n < 50) (q : Fin 64) : EReal :=
  ∑ s : Fin (n + 1), blockSum h a w2a b2a w2b b2b s.val (by have := s.isLt; omega) q

/-- After block 0 the running total is block 0's contribution. -/
theorem runningSum_zero (h a : FVec Ideal ⟨2, ![100000, 64]⟩ .f32) (w2a : FVec Ideal ⟨2, ![64, 64]⟩ .f32)
    (b2a : Fin 64 → EReal) (w2b : FVec Ideal ⟨2, ![64, 64]⟩ .f32) (b2b : Fin 64 → EReal) (h0 : 0 < 50) (q : Fin 64) :
    runningSum h a w2a b2a w2b b2b 0 h0 q = blockSum h a w2a b2a w2b b2b 0 h0 q := by
  unfold runningSum
  exact Fin.sum_univ_one _

/-- After block n + 1 it is the total after block n plus block n + 1's contribution. -/
theorem runningSum_succ (h a : FVec Ideal ⟨2, ![100000, 64]⟩ .f32) (w2a : FVec Ideal ⟨2, ![64, 64]⟩ .f32)
    (b2a : Fin 64 → EReal) (w2b : FVec Ideal ⟨2, ![64, 64]⟩ .f32) (b2b : Fin 64 → EReal) (n : ℕ) (hn : n + 1 < 50)
    (q : Fin 64) :
    runningSum h a w2a b2a w2b b2b (n + 1) hn q
      = runningSum h a w2a b2a w2b b2b n (Nat.lt_of_succ_lt hn) q + blockSum h a w2a b2a w2b b2b (n + 1) hn q := by
  unfold runningSum
  exact Fin.sum_univ_castSucc _

/-- After the last block the running total is the pooled result: the sum over all 100000 rows, block by block. -/
theorem runningSum_last (h a : FVec Ideal ⟨2, ![100000, 64]⟩ .f32) (w2a : FVec Ideal ⟨2, ![64, 64]⟩ .f32)
    (b2a : Fin 64 → EReal) (w2b : FVec Ideal ⟨2, ![64, 64]⟩ .f32) (b2b : Fin 64 → EReal) (h49 : 49 < 50) (u : Fin 1)
    (q : Fin 64) :
    runningSum h a w2a b2a w2b b2b 49 h49 q = pooled h a w2a b2a w2b b2b (ix2 u q) := by
  refine Eq.trans ?_ (sum_blocks fun r : Fin 100000 =>
    conv2Row (fun l => h (ix2 r l)) (fun l => a (ix2 r l)) (fun l k => w2a (ix2 l k)) b2a (fun k j => w2b (ix2 k j)) b2b q).symm
  rfl

end Cert.KernelIdeal.Pool

end
-- ==== Proof.PoolArray.lean ====
/-
  The pooling kernel's result array: the second convolution summed over all 100000 rows.

  The grid has fifty points. At point t the six input windows show rows 2000 t, ..., 2000 t + 1999 of the hidden
  features and of their aggregated neighbours, and the whole of the two weight matrices and of the two one-row
  biases. The one-row result's window is the whole [1, 64] array at every point: its staging buffer is carried
  from point to point and written back once, after the last point.

  By the two case lemmas the buffer holds, after point 0, zero plus block 0's contribution, and after point
  t > 0 what it held after point t - 1 plus block t's contribution. By induction on the point it holds, after
  point n, the running total of blocks 0, ..., n; after point 49 that is the sum over all rows. The write-back at
  point 49 covers the whole array, so the array ends holding it.

  Everything is stated at arbitrary contents V of the buffers on entry to the region.
-/
import proofs.«115259_j75634374083203_1_alg».proof.Proof.PoolBlock
import proofs.«115259_j75634374083203_1_alg».proof.Proof.PoolPieces
import proofs.«115259_j75634374083203_1_alg».proof.Proof.PoolSum
import proofs.«115259_j75634374083203_1_alg».proof.Proof.Gen.KernelIdeal.Frame
import Idealize.ShloMosaic.Lib.Pipeline.Value
import Idealize.ShloMosaic.Lib.ValueIdx

noncomputable section

open scoped BigOperators

namespace Cert.KernelIdeal.Pool

open Idealize.ShloMosaic Idealize.ShloMosaic.TcCoe Idealize.SL.Sem Idealize.ShloMosaic.ValueIdx
open Idealize.ShloMosaic.Pipeline (Dat)
open Cert.KernelIdeal Cert.KernelIdeal.Gen Cert.Gin

/-- Where each window's block sits at point t, in blocks: the two row windows at block t of the rows, every other
    window at block 0 on both axes. Decided over the fifty points. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

variable (V : (c : Dev nD) → (b : Ref sig .tc) → Buf (Elt Ideal) ((c : Thread nD τ).loc b))

/-! ## The input blocks at a point

An element of a block sits in its array, on each axis, at the block's index times the block's size plus its own
coordinate. -/

/-- Row i of the hidden features' block at point t is row 2000 t + i of the array. -/
theorem hidden_block (c : Dev nD) (t : Fin cfg1.N) (ht : t.val < 50) (i : Fin 2000) (l : Fin 64) :
    (iblk1 (F := Ideal) V c 0 t : S2000x64.Idx → EReal) (ix2 i l)
      = (V c main_v16 : S100000x64.Idx → EReal) (ix2 (⟨2000 * t.val + i.val, by have := i.isLt; omega⟩ : Fin 100000) l) := by
  obtain ⟨h0, h1, -⟩ := block_index t
  show V c main_v16 (((cfg1.win 0).blk t).view.emb (ix2 i l)) = V c main_v16 (ix2 _ l)
  refine congrArg (V c main_v16) (funext fun a => Fin.ext ?_)
  match a with
  | ⟨0, _⟩ =>
    show win1_0.index t 0 * 2000 + 1 * i.val = 2000 * t.val + i.val
    rw [h0]; omega
  | ⟨1, _⟩ =>
    show win1_0.index t 1 * 64 + 1 * l.val = l.val
    rw [h1]; omega

/-- Row i of the aggregated neighbours' block at point t is row 2000 t + i of the array. -/
theorem neighbour_block (c : Dev nD) (t : Fin cfg1.N) (ht : t.val < 50) (i : Fin 2000) (l : Fin 64) :
    (iblk1 (F := Ideal) V c 1 t : S2000x64.Idx → EReal) (ix2 i l)
      = (V c main_v26 : S100000x64.Idx → EReal) (ix2 (⟨2000 * t.val + i.val, by have := i.isLt; omega⟩ : Fin 100000) l) := by
  obtain ⟨-, -, h0, h1, -⟩ := block_index t
  show V c main_v26 (((cfg1.win 1).blk t).view.emb (ix2 i l)) = V c main_v26 (ix2 _ l)
  refine congrArg (V c main_v26) (funext fun a => Fin.ext ?_)
  match a with
  | ⟨0, _⟩ =>
    show win1_1.index t 0 * 2000 + 1 * i.val = 2000 * t.val + i.val
    rw [h0]; omega
  | ⟨1, _⟩ =>
    show win1_1.index t 1 * 64 + 1 * l.val = l.val
    rw [h1]; omega

/-- The first weight matrix's block is the whole matrix at every point. -/
theorem w2a_block (c : Dev nD) (t : Fin cfg1.N) (l k : Fin 64) :
    (iblk1 (F := Ideal) V c 2 t : S64x64.Idx → EReal) (ix2 l k) = (V c main_arg6 : S64x64.Idx → EReal) (ix2 l k) := by
  obtain ⟨-, -, -, -, h0, h1, -⟩ := block_index t
  show V c main_arg6 (((cfg1.win 2).blk t).view.emb (ix2 l k)) = V c main_arg6 (ix2 l k)
  refine congrArg (V c main_arg6) (funext fun a => Fin.ext ?_)
  match a with
  | ⟨0, _⟩ =>
    show win1_2.index t 0 * 64 + 1 * l.val = l.val
    rw [h0]; omega
  | ⟨1, _⟩ =>
    show win1_2.index t 1 * 64 + 1 * k.val = k.val
    rw [h1]; omega

/-- The first bias's block is the whole one-row array at every point. -/
theorem b2a_block (c : Dev nD) (t : Fin cfg1.N) (k : Fin 64) :
    (iblk1 (F := Ideal) V c 3 t : S1x64.Idx → EReal) (ix2 0 k) = (V c main_v27 : S1x64.Idx → EReal) (ix2 0 k) := by
  obtain ⟨-, -, -, -, -, -, h0, h1, -⟩ := block_index t
  show V c main_v27 (((cfg1.win 3).blk t).view.emb (ix2 0 k)) = V c main_v27 (ix2 0 k)
  refine congrArg (V c main_v27) (funext fun a => Fin.ext ?_)
  match a with
  | ⟨0, _⟩ =>
    show win1_3.index t 0 * 1 + 1 * 0 = 0
    rw [h0]
  | ⟨1, _⟩ =>
    show win1_3.index t 1 * 64 + 1 * k.val = k.val
    rw [h1]; omega

/-- The second weight matrix's block is the whole matrix at every point. -/
theorem w2b_block (c : Dev nD) (t : Fin cfg1.N) (k j : Fin 64) :
    (iblk1 (F := Ideal) V c 4 t : S64x64.Idx → EReal) (ix2 k j) = (V c main_arg8 : S64x64.Idx → EReal) (ix2 k j) := by
  obtain ⟨-, -, -, -, -, -, -, -, h0, h1, -⟩ := block_index t
  show V c main_arg8 (((cfg1.win 4).blk t).view.emb (ix2 k j)) = V c main_arg8 (ix2 k j)
  refine congrArg (V c main_arg8) (funext fun a => Fin.ext ?_)
  match a with
  | ⟨0, _⟩ =>
    show win1_4.index t 0 * 64 + 1 * k.val = k.val
    rw [h0]; omega
  | ⟨1, _⟩ =>
    show win1_4.index t 1 * 64 + 1 * j.val = j.val
    rw [h1]; omega

/-- The second bias's block is the whole one-row array at every point. -/
theorem b2b_block (c : Dev nD) (t : Fin cfg1.N) (k : Fin 64) :
    (iblk1 (F := Ideal) V c 5 t : S1x64.Idx → EReal) (ix2 0 k) = (V c main_v28 : S1x64.Idx → EReal) (ix2 0 k) := by
  obtain ⟨-, -, -, -, -, -, -, -, -, -, h0, h1, -⟩ := block_index t
  show V c main_v28 (((cfg1.win 5).blk t).view.emb (ix2 0 k)) = V c main_v28 (ix2 0 k)
  refine congrArg (V c main_v28) (funext fun a => Fin.ext ?_)
  match a with
  | ⟨0, _⟩ =>
    show win1_5.index t 0 * 1 + 1 * 0 = 0
    rw [h0]
  | ⟨1, _⟩ =>
    show win1_5.index t 1 * 64 + 1 * k.val = k.val
    rw [h1]; omega

/-! ## One point -/

/-- The second convolution's row depends only on its six arguments. -/
theorem conv2Row_congr {h h' a a' : Fin 64 → EReal} {w2a w2a' : Fin 64 → Fin 64 → EReal} {b2a b2a' : Fin 64 → EReal}
    {w2b w2b' : Fin 64 → Fin 64 → EReal} {b2b b2b' : Fin 64 → EReal} (e0 : h = h') (e1 : a = a') (e2 : w2a = w2a')
    (e3 : b2a = b2a') (e4 : w2b = w2b') (e5 : b2b = b2b') (q : Fin 64) :
    conv2Row h a w2a b2a w2b b2b q = conv2Row h' a' w2a' b2a' w2b' b2b' q := by
  subst e0 e1 e2 e3 e4 e5; rfl

/-- The accumulated block of point t's input blocks and any old block, at column q: the old block at q plus
    block t's contribution. -/
theorem point_sum (c : Dev nD) (t : Fin cfg1.N) (ht : t.val < 50) (old : Vec Ideal S1x64 .f32) (q : Fin 64) :
    (k1_pay2 (F := Ideal) (iblk1 V c 0 t) (iblk1 V c 1 t) (iblk1 V c 2 t) (iblk1 V c 3 t) (iblk1 V c 4 t) (iblk1 V c 5 t) old : S1x64.Idx → EReal) (ix2 0 q)
      = (old : S1x64.Idx → EReal) (ix2 0 q) + blockSum (V c main_v16) (V c main_v26) (V c main_arg6) (fun k => (V c main_v27 : S1x64.Idx → EReal) (ix2 0 k)) (V c main_arg8) (fun k => (V c main_v28 : S1x64.Idx → EReal) (ix2 0 k)) t.val ht q := by
  refine (acc_apply (iblk1 V c 0 t) (iblk1 V c 1 t) (iblk1 V c 2 t) (iblk1 V c 3 t) (iblk1 V c 4 t) (iblk1 V c 5 t) old q).trans ?_
  refine congrArg (fun s : EReal => (old : S1x64.Idx → EReal) (ix2 0 q) + s) ?_
  unfold blockSum
  refine Finset.sum_congr rfl fun i _ => ?_
  exact conv2Row_congr (funext fun l => hidden_block V c t ht i l) (funext fun l => neighbour_block V c t ht i l)
    (funext fun l => funext fun k => w2a_block V c t l k) (funext fun k => b2a_block V c t k)
    (funext fun k => funext fun j => w2b_block V c t k j) (funext fun k => b2b_block V c t k) q

/-- After the first point the carried block holds block 0's contribution (zero plus it). -/
theorem at_first (c : Dev nD) (t : Fin cfg1.N) (ht : t.val < 50) (h0 : t.val % 50 = 0) (q : Fin 64) :
    (outsAt1 (F := Ideal) V c t.val t.isLt : S1x64.Idx → EReal) (ix2 0 q) = blockSum (V c main_v16) (V c main_v26) (V c main_arg6) (fun k => (V c main_v27 : S1x64.Idx → EReal) (ix2 0 k)) (V c main_arg8) (fun k => (V c main_v28 : S1x64.Idx → EReal) (ix2 0 k)) t.val ht q := by
  rw [outsAt1_A V c t h0,
    first_point c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t) (iblk1 V c 5 t)]
  refine (point_sum V c t ht (k1_pay1 (F := Ideal)) q).trans ?_
  exact (congrArg (fun s : EReal => s + blockSum (V c main_v16) (V c main_v26) (V c main_arg6) (fun k => (V c main_v27 : S1x64.Idx → EReal) (ix2 0 k)) (V c main_arg8) (fun k => (V c main_v28 : S1x64.Idx → EReal) (ix2 0 k)) t.val ht q) (zeros_apply (ix2 0 q))).trans (zeroWord_add _)

/-- After a later point it holds what it held after the point before, plus that point's block's contribution. -/
theorem at_later (c : Dev nD) (t : Fin cfg1.N) (ht : t.val < 50) (h0 : ¬t.val % 50 = 0) (q : Fin 64) :
    (outsAt1 (F := Ideal) V c t.val t.isLt : S1x64.Idx → EReal) (ix2 0 q)
      = (outsAt1 (F := Ideal) V c (t.val - 1) (Nat.lt_of_le_of_lt (Nat.sub_le _ _) t.isLt) : S1x64.Idx → EReal) (ix2 0 q)
        + blockSum (V c main_v16) (V c main_v26) (V c main_arg6) (fun k => (V c main_v27 : S1x64.Idx → EReal) (ix2 0 k)) (V c main_arg8) (fun k => (V c main_v28 : S1x64.Idx → EReal) (ix2 0 k)) t.val ht q := by
  rw [outsAt1_B V c t h0,
    later_point c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (iblk1 V c 5 t)
      (outsAt1 V c (t.val - 1) (Nat.lt_of_le_of_lt (Nat.sub_le _ _) t.isLt))]
  exact point_sum V c t ht _ q

/-! ## All points -/

/-- After point n the carried block holds the running total of blocks 0, ..., n: by induction on the point. -/
theorem carried (c : Dev nD) : ∀ (n : ℕ) (hn : n < cfg1.N) (hn' : n < 50) (q : Fin 64),
    (outsAt1 (F := Ideal) V c n hn : S1x64.Idx → EReal) (ix2 0 q) = runningSum (V c main_v16) (V c main_v26) (V c main_arg6) (fun k => (V c main_v27 : S1x64.Idx → EReal) (ix2 0 k)) (V c main_arg8) (fun k => (V c main_v28 : S1x64.Idx → EReal) (ix2 0 k)) n hn' q
  | 0, hn, hn', q => (at_first V c ⟨0, hn⟩ hn' rfl q).trans (runningSum_zero _ _ _ _ _ _ hn' q).symm
  | n + 1, hn, hn', q => by
    have hB : ¬(⟨n + 1, hn⟩ : Fin cfg1.N).val % 50 = 0 := by
      show ¬(n + 1) % 50 = 0
      omega
    refine (at_later V c ⟨n + 1, hn⟩ hn' hB q).trans ?_
    refine Eq.trans ?_ (runningSum_succ _ _ _ _ _ _ n hn' q).symm
    exact congrArg (fun s : EReal => s + blockSum (V c main_v16) (V c main_v26) (V c main_arg6) (fun k => (V c main_v27 : S1x64.Idx → EReal) (ix2 0 k)) (V c main_arg8) (fun k => (V c main_v28 : S1x64.Idx → EReal) (ix2 0 k)) (n + 1) hn' q)
      (carried c n (Nat.lt_of_succ_lt hn) (Nat.lt_of_succ_lt hn') q)

/-- So after the last point, point 49, it holds the pooled result. -/
theorem carried_last (c : Dev nD) (n : ℕ) (hn : n < cfg1.N) (e : n = 49) :
    (outsAt1 (F := Ideal) V c n hn : S1x64.Idx → EReal) = pooled (V c main_v16) (V c main_v26) (V c main_arg6) (fun k => (V c main_v27 : S1x64.Idx → EReal) (ix2 0 k)) (V c main_arg8) (fun k => (V c main_v28 : S1x64.Idx → EReal) (ix2 0 k)) := by
  subst e
  funext j
  obtain ⟨u, q, rfl⟩ : ∃ (u : Fin 1) (q : Fin 64), j = ix2 u q := ⟨j 0, j 1, eq_ix2 j⟩
  obtain rfl : u = 0 := Subsingleton.elim _ _
  exact (carried V c 49 hn (by omega) q).trans (runningSum_last _ _ _ _ _ _ (by omega) 0 q)

/-! ## The array -/

/-- The one write-back, after point 49, writes the pooled result: the result's block is block (0, 0) of a
    [1, 64] array, the whole of it. -/
theorem written_back (c : Dev nD) (t : Fin cfg1.N) (hf : (cfg1.win 6).flush t = true) :
    (dat1 (F := Ideal) V c).flushed 6 t = ((cfg1.win 6).blk t).view.read (Elt Ideal) (pooled (V c main_v16) (V c main_v26) (V c main_arg6) (fun k => (V c main_v27 : S1x64.Idx → EReal) (ix2 0 k)) (V c main_arg8) (fun k => (V c main_v28 : S1x64.Idx → EReal) (ix2 0 k))) := by
  have hN : t.val < 50 := lt_of_lt_of_eq t.isLt (show cfg1.N = 50 from N_1)
  have h49 : t.val = 49 := by have := (flush1_6 t).mp hf; omega
  obtain ⟨-, -, -, -, -, -, -, -, -, -, -, -, h0, h1⟩ := block_index t
  show (cfg1.win 6).cut (grid1.coords t) ((dat1 V c).after 6 t) = _
  rw [after1_6, carried_last V c t.val t.isLt h49]
  have hz : (fun a => win1_6.index t a * main_v29.ty.shape.size a) = fun _ => 0 := funext fun a => by
    match a with
    | ⟨0, _⟩ => show win1_6.index t 0 * _ = 0; rw [h0, Nat.zero_mul]
    | ⟨1, _⟩ => show win1_6.index t 1 * _ = 0; rw [h1, Nat.zero_mul]
  exact (Memref.read_access_unit_zero (Elt Ideal) main_v29 hz (fun a => by rw [congrFun hz a, Nat.zero_add])
    (pooled (V c main_v16) (V c main_v26) (V c main_arg6) (fun k => (V c main_v27 : S1x64.Idx → EReal) (ix2 0 k)) (V c main_arg8) (fun k => (V c main_v28 : S1x64.Idx → EReal) (ix2 0 k)))).symm

/-- The last point of the grid, the one after which the result is written back. -/
abbrev lastPoint : Fin cfg1.N := ⟨49, by rw [show cfg1.N = 50 from N_1]; decide⟩

/-- The block written back after the last point is the whole [1, 64] array: every index of the array is in it. -/
theorem covered (c : Dev nD) (i : ((cfg1.win 6).arr.view.loc (c.tc : Thread nD τ)).2.ty.Idx) :
    i ∈ ((cfg1.win 6).blk lastPoint).view.set := by
  show i ∈ ((View.whole main_v29).slice (win1_6.rect lastPoint)).set
  rw [View.set_slice_whole, Rect.mem_set_unit]
  intro a
  have h0 : (i 0 : Nat) < 1 := (i 0).isLt
  have h1 : (i 1 : Nat) < 64 := (i 1).isLt
  match a with
  | ⟨0, _⟩ =>
    show win1_6.index lastPoint 0 * win1_6.size 0 ≤ (i 0 : Nat)
      ∧ (i 0 : Nat) < win1_6.index lastPoint 0 * win1_6.size 0 + win1_6.xsize (grid1.coords lastPoint) 0
    rw [show win1_6.index lastPoint 0 * win1_6.size 0 = 0 from by decide +kernel,
      show win1_6.xsize (grid1.coords lastPoint) 0 = 1 from by decide +kernel]
    omega
  | ⟨1, _⟩ =>
    show win1_6.index lastPoint 1 * win1_6.size 1 ≤ (i 1 : Nat)
      ∧ (i 1 : Nat) < win1_6.index lastPoint 1 * win1_6.size 1 + win1_6.xsize (grid1.coords lastPoint) 1
    rw [show win1_6.index lastPoint 1 * win1_6.size 1 = 0 from by decide +kernel,
      show win1_6.xsize (grid1.coords lastPoint) 1 = 64 from by decide +kernel]
    omega

/-- The pooling kernel's result array after the run: column q holds the sum over all 100000 rows of the second
    convolution's row at q, of the arrays as the region finds them. -/
theorem final (c : Dev nD) :
    ((dat1 (F := Ideal) V c).arrAt 6 cfg1.N : S1x64.Idx → EReal) = pooled (V c main_v16) (V c main_v26) (V c main_arg6) (fun k => (V c main_v27 : S1x64.Idx → EReal) (ix2 0 k)) (V c main_arg8) (fun k => (V c main_v28 : S1x64.Idx → EReal) (ix2 0 k)) :=
  (dat1 (F := Ideal) V c).arrAt_eq_of_cover 6 (pooled (V c main_v16) (V c main_v26) (V c main_arg6) (fun k => (V c main_v27 : S1x64.Idx → EReal) (ix2 0 k)) (V c main_arg8) (fun k => (V c main_v28 : S1x64.Idx → EReal) (ix2 0 k))) (written_back V c) fun i =>
    ⟨lastPoint, (flush1_6 lastPoint).mpr rfl, covered c i⟩

end Cert.KernelIdeal.Pool

end
-- ==== Proof.KernelValue.lean ====
/-
  The idealized kernel's result as a function of its arguments.

  The first pallas_call turns the features x and their aggregated neighbours into the hidden features
  h = hidden x (agg x) …; the host aggregates h over the same edges; the second pallas_call sums, over all nodes,
  the second convolution of h and its aggregated neighbours. Each call's result array is what its blocks write
  back, and each operand array is what the host operations before the call left, so the result buffer at the end
  is pooled h (agg h) … of the launch contents of the arguments.
-/
import proofs.«115259_j75634374083203_1_alg».proof.Proof.KernelHost
import proofs.«115259_j75634374083203_1_alg».proof.Proof.Conv1Array
import proofs.«115259_j75634374083203_1_alg».proof.Proof.PoolArray
import proofs.«115259_j75634374083203_1_alg».proof.Proof.Spec
import Idealize.ShloMosaic.Lib.ValueLayout

set_option maxRecDepth 16384

noncomputable section

namespace Cert.KernelIdeal.NetValue

open Cert.KernelIdeal Cert.KernelIdeal.Gen Cert.KernelIdeal.HostValue
open Idealize.ShloMosaic Idealize.ShloMosaic.TcCoe Idealize.SL.Sem Idealize.ShloMosaic.ValueIdx

variable (m : (ℓ : Loc nD τ sig) → Buf (Elt Ideal) ℓ) (ρ : Dev nD → PrngReg)

/-- The hidden features: the first convolution of the features and their aggregated neighbours. -/
def hid (c : Dev nD) : FVec Ideal S100000x64 .f32 :=
  Cert.Gin.hidden (m ((c : Thread nD τ).loc main_arg0))
    (agg128 (m ((c : Thread nD τ).loc main_arg0)) (m ((c : Thread nD τ).loc main_arg1)))
    (m ((c : Thread nD τ).loc main_arg2)) (fun k => (m ((c : Thread nD τ).loc main_arg3) : S64.Idx → EReal) (ix1 k))
    (m ((c : Thread nD τ).loc main_arg4)) (fun k => (m ((c : Thread nD τ).loc main_arg5) : S64.Idx → EReal) (ix1 k))

/-- After the first call its result array holds the hidden features: the blocks written back are the first
    convolution of the operand arrays, which are the features, their aggregation, the weights, and the biases as
    one-row matrices (a one-row matrix read at (0, k) is the vector at k). -/
theorem mid_h (c : Dev nD) : (W2 m ρ c (Proc.devRef .tc main_v16) : S100000x64.Idx → EReal) = hid m c := by
  refine (W2_arr m ρ c 6).trans ?_
  refine (Cert.KernelIdeal.Conv1.final (V1 m ρ) c).trans ?_
  unfold hid
  rw [entry0_x, entry0_agg, entry0_w1a, entry0_b1a, entry0_w1b, entry0_b1b]
  simp only [shapeCast_a_1a_apply]

/-- After the second call the result buffer holds the second convolution of the hidden features and their
    aggregation, summed over the nodes. -/
theorem result (c : Dev nD) :
    (W4 m ρ c (Proc.devRef .tc main_v29) : S1x64.Idx → EReal)
      = Cert.Gin.pooled (hid m c) (agg64 (hid m c) (m ((c : Thread nD τ).loc main_arg1)))
          (m ((c : Thread nD τ).loc main_arg6)) (fun k => (m ((c : Thread nD τ).loc main_arg7) : S64.Idx → EReal) (ix1 k))
          (m ((c : Thread nD τ).loc main_arg8)) (fun k => (m ((c : Thread nD τ).loc main_arg9) : S64.Idx → EReal) (ix1 k)) := by
  refine (W4_arr m ρ c 6).trans ?_
  refine (Cert.KernelIdeal.Pool.final (V3 m ρ) c).trans ?_
  rw [entry1_h, entry1_agg, entry1_w2a, entry1_b2a, entry1_w2b, entry1_b2b, mid_h m ρ c]
  simp only [shapeCast_a_1a_apply]

end Cert.KernelIdeal.NetValue

end
-- ==== Proof.RefAgg.lean ====
/-
  The aggregation over incoming edges, as the reference program spells it.

  The graph's edges arrive as a 2 × 1600000 array of node numbers: row 0 holds each edge's source, row 1 its target.
  For a node array x the program forms, for every target node, the sum of the rows x(source) over the edges that
  point at it: it gathers the source rows into one row per edge and scatter-adds them into an all-zero array at the
  target positions. A negative source number is first wrapped around by adding the number of nodes.

  Neither the gather nor the scatter-add is ever read at an index here. The kernel's program applies the very same
  operations to the very same arrays, so the whole aggregation is carried as one function of the node array and the
  edge array, named once and never opened. It occurs twice, for the 128 feature columns and for the 64 hidden ones.
-/
import proofs.«115259_j75634374083203_1_alg».proof.Proof.Gen.ReferenceIdeal.Read
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- The edge array: row 0 the sources, row 1 the targets. -/
abbrev EdgeT := (⟨S2x1600000, .i32⟩ : BufTy).Contents (Elt Ideal)

/-- The edge sources, negative ones wrapped by +100000, as a column of start indices. -/
def srcIdx (e : EdgeT) : (⟨S1600000x1, .i32⟩ : BufTy).Contents (Elt Ideal) :=
  broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))

/-- The edge targets as a column of scatter indices. -/
def dstIdx (e : EdgeT) : (⟨S1600000x1, .i32⟩ : BufTy).Contents (Elt Ideal) :=
  broadcastInDim S1600000x1 ![0] bcast_S1600000_S1600000x1_0 (shapeCast _ (extractStridedSlice S1x1600000 ![1, 0] e slices_S2x1600000_S1x1600000_1_0) shapeCasts_S1x1600000_S1600000)

/-- The sum over incoming edges of the source rows, for 128 columns: row t of the result is the sum of the rows
    x(source of ε) over the edges ε whose target is t. -/
def agg128 (x : (⟨S100000x128, .f32⟩ : BufTy).Contents (Elt Ideal)) (e : EdgeT) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32)) (dstIdx e)
    (Host.gather gather_S100000x128_S1600000x1_S1600000x128_1_0_n_n_0_1_1128 x (srcIdx e))

/-- The same sum for 64 columns. -/
def agg64 (h : (⟨S100000x64, .f32⟩ : BufTy).Contents (Elt Ideal)) (e : EdgeT) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32)) (dstIdx e)
    (Host.gather gather_S100000x64_S1600000x1_S1600000x64_1_0_n_n_0_1_164 h (srcIdx e))

/-- The program's first aggregation stage is `agg128` of the features and the edges: the stages between the
    arguments and the scatter-add are the operations `srcIdx`, `dstIdx` and `agg128` compose, one name per
    operation. -/
theorem agg128_stage (x0 : (⟨S100000x128, .f32⟩ : BufTy).Contents (Elt Ideal)) (x1 : EdgeT) :
    Read.val_main_v13 (F := Ideal) x0 x1 = agg128 x0 x1 := rfl

end Cert.ReferenceIdeal.RefValue

end
-- ==== Proof.RefStages.lean ====
/-
  The reference program's first convolution is the specification's `hidden`.

  Read at row r and column q, the program's value after its second maximum is

      max (Σ_k max (Σ_l (x(r,l) + a(r,l)) · W1a(l,k) + b1a(k)) 0 · W1b(k,q) + b1b(q)) 0,

  where a is the aggregation of x over the incoming edges. The program reaches it in eleven steps: the sum x + a, a
  product with W1a (a sum over the 128 feature columns l), the bias b1a spread over the rows, a maximum with zero, a
  product with W1b (a sum over the 64 hidden columns k), the bias b1b, a maximum with zero. Each step is read at an
  index by the lemma the generated reading module states for it; what is left is to say which entries the two
  products and the two bias spreads touch — (r,l) and (l,k), (r,k) and (k,q), and column k or q of the bias — and
  that is one computation per coordinate.
-/
import proofs.«115259_j75634374083203_1_alg».proof.Proof.RefAgg
import proofs.«115259_j75634374083203_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The inner layer at row r and column k: the row x(r,·) + a(r,·) through W1a and b1a, then a maximum with zero.
    The product's left factor sits at (r,l) and its right factor at (l,k); the bias, first made a one-row array and
    then repeated down the rows, is read at column k. -/
theorem firstLayer_at (x0 : (⟨S100000x128, .f32⟩ : BufTy).Contents (Elt Ideal)) (x1 : EdgeT) (x2 : (⟨S128x64, .f32⟩ : BufTy).Contents (Elt Ideal)) (x3 : (⟨S64, .f32⟩ : BufTy).Contents (Elt Ideal))
    (r : Fin 100000) (k : Fin 64) :
    Read.val_main_v19 (F := Ideal) x0 x1 x2 x3 (ix2 r k)
      = max ((∑ l : Fin 128, (x0 (ix2 r l) + agg128 x0 x1 (ix2 r l)) * x2 (ix2 l k)) + x3 (ix1 k)) Cert.Gin.zeroWord := by
  rw [Read.val_main_v19_apply, Read.val_main_v18_apply, Read.val_main_v15_apply, Read.val_main_v17_apply,
    Read.val_main_v16_apply, Read.val_main_call0_v0_apply, Read.val_main_call0_cst_apply]
  have e16 : Read.idx_main_v16 (Read.idx_main_v17 (ix2 r k)) = ix1 k :=
    funext fun a => Fin.ext (by match a with | ⟨0, _⟩ => rfl)
  have el : ∀ l : Fin 128, Read.lidx_main_v15 (ix2 r k) l = ix2 r l := fun l =>
    funext fun a => Fin.ext (by match a with | ⟨0, _⟩ => rfl | ⟨1, _⟩ => rfl)
  have er : ∀ l : Fin 128, Read.ridx_main_v15 (ix2 r k) l = ix2 l k := fun l =>
    funext fun a => Fin.ext (by match a with | ⟨0, _⟩ => rfl | ⟨1, _⟩ => rfl)
  simp only [e16, el, er, Read.val_main_v14_apply, agg128_stage, Ideal.addf_def, Ideal.maximumf_def, Ideal.ofBits_def]

/-- The first convolution on the whole node array: the outer layer takes the inner layer's row r through W1b and b1b
    and a second maximum with zero, which is `conv1Row` of row r of x and of its aggregation, at column q. -/
theorem hidden_stage (x0 : (⟨S100000x128, .f32⟩ : BufTy).Contents (Elt Ideal)) (x1 : EdgeT) (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    Read.val_main_v24 (F := Ideal) x0 x1 x2 x3 x4 x5
      = Cert.Gin.hidden x0 (agg128 x0 x1) x2 (fun k => x3 (ix1 k)) x4 (fun k => x5 (ix1 k)) := by
  funext j
  obtain ⟨r, q, rfl⟩ : ∃ (r : Fin 100000) (q : Fin 64), j = ix2 r q := ⟨j 0, j 1, eq_ix2 j⟩
  rw [Read.val_main_v24_apply, Read.val_main_v23_apply, Read.val_main_v20_apply, Read.val_main_v22_apply,
    Read.val_main_v21_apply, Read.val_main_call1_v0_apply, Read.val_main_call1_cst_apply]
  have e21 : Read.idx_main_v21 (Read.idx_main_v22 (ix2 r q)) = ix1 q :=
    funext fun a => Fin.ext (by match a with | ⟨0, _⟩ => rfl)
  have el : ∀ k : Fin 64, Read.lidx_main_v20 (ix2 r q) k = ix2 r k := fun k =>
    funext fun a => Fin.ext (by match a with | ⟨0, _⟩ => rfl | ⟨1, _⟩ => rfl)
  have er : ∀ k : Fin 64, Read.ridx_main_v20 (ix2 r q) k = ix2 k q := fun k =>
    funext fun a => Fin.ext (by match a with | ⟨0, _⟩ => rfl | ⟨1, _⟩ => rfl)
  simp only [e21, el, er, firstLayer_at, Ideal.addf_def, Ideal.maximumf_def, Ideal.ofBits_def]
  rfl

end Cert.ReferenceIdeal.RefValue

end
-- ==== Proof.RefPooled.lean ====
/-
  The reference program's second convolution, summed over the nodes, is the specification's `pooled`.

  Write h for the first convolution's result and a for its aggregation over the incoming edges. Read at its one row
  and at column q, the program's result is

      Σ_r (Σ_k max (Σ_l (h(r,l) + a(r,l)) · W2a(l,k) + b2a(k)) 0 · W2b(k,q) + b2b(q)),

  the sum over the 100000 nodes r of the second convolution's row r. The program reaches it as the first convolution
  does — the sum h + a, a product with W2a, the bias b2a, a maximum with zero, a product with W2b, the bias b2b —
  and then sums down the rows from the value of the all-zero word, which is 0, and makes the 64 sums a one-row array.
  Throughout, h stays the one name the program's stage has: nothing here depends on what h is.
-/
import proofs.«115259_j75634374083203_1_alg».proof.Proof.RefAgg
import proofs.«115259_j75634374083203_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The program's second aggregation stage is `agg64` of the first convolution's result and the edges: the source
    column is computed again from the same edge row with the same two constants, so it is the same term. -/
theorem agg64_stage (x0 : (⟨S100000x128, .f32⟩ : BufTy).Contents (Elt Ideal)) (x1 : EdgeT) (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    Read.val_main_v34 (F := Ideal) x0 x1 x2 x3 x4 x5 = agg64 (Read.val_main_v24 (F := Ideal) x0 x1 x2 x3 x4 x5) x1 := rfl

/-- The inner layer of the second convolution at row r and column k: the row h(r,·) + a(r,·) through W2a and b2a,
    then a maximum with zero. -/
theorem secondLayer_at (x0 : (⟨S100000x128, .f32⟩ : BufTy).Contents (Elt Ideal)) (x1 : EdgeT) (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (r : Fin 100000) (k : Fin 64) :
    Read.val_main_v40 (F := Ideal) x0 x1 x2 x3 x4 x5 x6 x7 (ix2 r k)
      = max ((∑ l : Fin 64, (Read.val_main_v24 (F := Ideal) x0 x1 x2 x3 x4 x5 (ix2 r l)
              + agg64 (Read.val_main_v24 (F := Ideal) x0 x1 x2 x3 x4 x5) x1 (ix2 r l)) * x6 (ix2 l k)) + x7 (ix1 k))
          Cert.Gin.zeroWord := by
  rw [Read.val_main_v40_apply, Read.val_main_v39_apply, Read.val_main_v36_apply, Read.val_main_v38_apply,
    Read.val_main_v37_apply, Read.val_main_call2_v0_apply, Read.val_main_call2_cst_apply]
  have e37 : Read.idx_main_v37 (Read.idx_main_v38 (ix2 r k)) = ix1 k :=
    funext fun a => Fin.ext (by match a with | ⟨0, _⟩ => rfl)
  have el : ∀ l : Fin 64, Read.lidx_main_v36 (ix2 r k) l = ix2 r l := fun l =>
    funext fun a => Fin.ext (by match a with | ⟨0, _⟩ => rfl | ⟨1, _⟩ => rfl)
  have er : ∀ l : Fin 64, Read.ridx_main_v36 (ix2 r k) l = ix2 l k := fun l =>
    funext fun a => Fin.ext (by match a with | ⟨0, _⟩ => rfl | ⟨1, _⟩ => rfl)
  simp only [e37, el, er, Read.val_main_v35_apply, agg64_stage, Ideal.addf_def, Ideal.maximumf_def, Ideal.ofBits_def]

/-- The result: at column q, zero plus the sum over the rows r of the outer layer at (r,q), and the outer layer at
    (r,q) is `conv2Row` of row r of h and of its aggregation. The sum's entries are matched row by row. -/
theorem pooled_stage (x0 : (⟨S100000x128, .f32⟩ : BufTy).Contents (Elt Ideal)) (x1 : EdgeT) (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    Read.val_main_v46 (F := Ideal) x0 x1 x2 x3 x4 x5 x6 x7 x8 x9
      = Cert.Gin.pooled (Read.val_main_v24 (F := Ideal) x0 x1 x2 x3 x4 x5)
          (agg64 (Read.val_main_v24 (F := Ideal) x0 x1 x2 x3 x4 x5) x1)
          x6 (fun k => x7 (ix1 k)) x8 (fun k => x9 (ix1 k)) := by
  funext j
  obtain ⟨p, q, rfl⟩ : ∃ (p : Fin 1) (q : Fin 64), j = ix2 p q := ⟨j 0, j 1, eq_ix2 j⟩
  rw [Read.val_main_v46_apply, Read.val_main_v45_apply, Read.val_main_cst_4_apply, Ideal.ofBits_def,
    Ideal.ofBits_zero_f32, zero_add, Cert.Gin.pooled, Cert.Gin.arr2_ix2]
  refine Finset.sum_congr rfl fun r _ => ?_
  have e45 : Read.idx_main_v45 (Read.idx_main_v46 (ix2 p q)) r = ix2 r q :=
    funext fun a => Fin.ext (by match a with | ⟨0, _⟩ => rfl | ⟨1, _⟩ => rfl)
  rw [e45, Read.val_main_v44_apply, Read.val_main_v41_apply, Read.val_main_v43_apply, Read.val_main_v42_apply]
  have e42 : Read.idx_main_v42 (Read.idx_main_v43 (ix2 r q)) = ix1 q :=
    funext fun a => Fin.ext (by match a with | ⟨0, _⟩ => rfl)
  have el : ∀ k : Fin 64, Read.lidx_main_v41 (ix2 r q) k = ix2 r k := fun k =>
    funext fun a => Fin.ext (by match a with | ⟨0, _⟩ => rfl | ⟨1, _⟩ => rfl)
  have er : ∀ k : Fin 64, Read.ridx_main_v41 (ix2 r q) k = ix2 k q := fun k =>
    funext fun a => Fin.ext (by match a with | ⟨0, _⟩ => rfl | ⟨1, _⟩ => rfl)
  simp only [e42, el, er, secondLayer_at, Ideal.addf_def]
  rfl

end Cert.ReferenceIdeal.RefValue

end
-- ==== Proof.RefValue.lean ====
/-
  The reference program's result, as one function of its ten arguments.

  The program's run leaves in its result buffer the composed term of its sixty operations. That term is the last
  reading stage; the last stage is `pooled` of the first convolution's result h, of h's aggregation over the incoming
  edges, and of the second convolution's weights and biases; and h is `hidden` of the node features, of their
  aggregation, and of the first convolution's weights and biases. The four biases are rank-one arrays, read here as
  functions of the column.
-/
import proofs.«115259_j75634374083203_1_alg».proof.Proof.RefStages
import proofs.«115259_j75634374083203_1_alg».proof.Proof.RefPooled

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The result buffer after the run: the second convolution of the first, summed over the nodes. -/
theorem result_eq (m : (ℓ : Loc nD τ sig) → Buf (Elt Ideal) ℓ) (c : Dev nD) :
    (Cert.ReferenceIdeal.Value.res_out0 (F := Ideal) m c : S1x64.Idx → EReal)
      = Cert.Gin.pooled
          (Cert.Gin.hidden (m ((c.tc : Thread nD τ).loc main_arg0) : (⟨S100000x128, .f32⟩ : BufTy).Contents (Elt Ideal))
            (agg128 (m ((c.tc : Thread nD τ).loc main_arg0) : (⟨S100000x128, .f32⟩ : BufTy).Contents (Elt Ideal)) (m ((c.tc : Thread nD τ).loc main_arg1) : (⟨S2x1600000, .i32⟩ : BufTy).Contents (Elt Ideal)))
            (m ((c.tc : Thread nD τ).loc main_arg2) : (⟨S128x64, .f32⟩ : BufTy).Contents (Elt Ideal)) (fun k => (m ((c.tc : Thread nD τ).loc main_arg3) : (⟨S64, .f32⟩ : BufTy).Contents (Elt Ideal)) (ix1 k))
            (m ((c.tc : Thread nD τ).loc main_arg4) : (⟨S64x64, .f32⟩ : BufTy).Contents (Elt Ideal)) (fun k => (m ((c.tc : Thread nD τ).loc main_arg5) : (⟨S64, .f32⟩ : BufTy).Contents (Elt Ideal)) (ix1 k)))
          (agg64 (Cert.Gin.hidden (m ((c.tc : Thread nD τ).loc main_arg0) : (⟨S100000x128, .f32⟩ : BufTy).Contents (Elt Ideal))
            (agg128 (m ((c.tc : Thread nD τ).loc main_arg0) : (⟨S100000x128, .f32⟩ : BufTy).Contents (Elt Ideal)) (m ((c.tc : Thread nD τ).loc main_arg1) : (⟨S2x1600000, .i32⟩ : BufTy).Contents (Elt Ideal)))
            (m ((c.tc : Thread nD τ).loc main_arg2) : (⟨S128x64, .f32⟩ : BufTy).Contents (Elt Ideal)) (fun k => (m ((c.tc : Thread nD τ).loc main_arg3) : (⟨S64, .f32⟩ : BufTy).Contents (Elt Ideal)) (ix1 k))
            (m ((c.tc : Thread nD τ).loc main_arg4) : (⟨S64x64, .f32⟩ : BufTy).Contents (Elt Ideal)) (fun k => (m ((c.tc : Thread nD τ).loc main_arg5) : (⟨S64, .f32⟩ : BufTy).Contents (Elt Ideal)) (ix1 k)))
            (m ((c.tc : Thread nD τ).loc main_arg1) : (⟨S2x1600000, .i32⟩ : BufTy).Contents (Elt Ideal)))
          (m ((c.tc : Thread nD τ).loc main_arg6) : (⟨S64x64, .f32⟩ : BufTy).Contents (Elt Ideal)) (fun k => (m ((c.tc : Thread nD τ).loc main_arg7) : (⟨S64, .f32⟩ : BufTy).Contents (Elt Ideal)) (ix1 k))
          (m ((c.tc : Thread nD τ).loc main_arg8) : (⟨S64x64, .f32⟩ : BufTy).Contents (Elt Ideal)) (fun k => (m ((c.tc : Thread nD τ).loc main_arg9) : (⟨S64, .f32⟩ : BufTy).Contents (Elt Ideal)) (ix1 k)) := by
  refine (Read.val_main_v46_eq (F := Ideal) m c).trans ?_
  refine (pooled_stage _ _ _ _ _ _ _ _ _ _).trans ?_
  rw [hidden_stage]

end Cert.ReferenceIdeal.RefValue

end
-- ==== Proof.lean ====
/-
  The kernel — two pallas_calls, each a two-layer perceptron over blocks of 2000 node rows, with the neighbour
  aggregation done by host gather and scatter-add before each — against its reference.

  Both programs compute, on the extended reals,

      h   = max (max ((x + agg x) · W1a + b1a) 0 · W1b + b1b) 0                      (row by row)
      out = Σ_r ( max ((h + agg h)_r · W2a + b2a) 0 · W2b + b2b )                     (one row of 64 columns)

  where agg sums, into each node's row, the rows of the sources of its incoming edges. The aggregation is the same
  composition of host operations in both programs and is carried as one function; a change of float format is the
  identity; a matrix product is the plain sum over the contracted index; the kernel's blockwise work is the same
  function of a row as the reference's whole-array work, and its running sum over the 50 blocks of 2000 rows is the
  sum over the 100000 rows because addition of extended reals is commutative and associative. No step needs the
  inputs to be finite.

  The three frames are the generated ones (the reference's is its run with the result dropped); the idealization
  rewrote nothing, so the kernel is its own idealization; the two idealized runs end with the same result because
  both result buffers hold `pooled h (agg h) …` of the arguments.
-/
import proofs.«115259_j75634374083203_1_alg».proof.Defs
import proofs.«115259_j75634374083203_1_alg».proof.Proof.Gen.Kernel
import proofs.«115259_j75634374083203_1_alg».proof.Proof.Gen.Kernel.Frame
import proofs.«115259_j75634374083203_1_alg».proof.Proof.Gen.KernelIdeal
import proofs.«115259_j75634374083203_1_alg».proof.Proof.Gen.KernelIdeal.Frame
import proofs.«115259_j75634374083203_1_alg».proof.Proof.Gen.ReferenceIdeal
import proofs.«115259_j75634374083203_1_alg».proof.Proof.Gen.ReferenceIdeal.Run
import proofs.«115259_j75634374083203_1_alg».proof.Proof.Gen.Pre_finite_inputs
import proofs.«115259_j75634374083203_1_alg».proof.Proof.KernelRun
import proofs.«115259_j75634374083203_1_alg».proof.Proof.KernelValue
import proofs.«115259_j75634374083203_1_alg».proof.Proof.RefValue
import Idealize.ShloMosaic.Adequacy
import Idealize.ShloMosaic.Init

noncomputable section

namespace Cert.Proof

open Idealize.ShloMosaic Idealize.ShloMosaic.TcCoe Idealize.SL.Sem

/-! ## The aggregation is one function in both programs -/

/-- The two programs spell the aggregation over 128 columns with their own copies of the same dimension records and
    shape facts: the same function. -/
theorem agg128_same : @Cert.ReferenceIdeal.RefValue.agg128 = @Cert.KernelIdeal.HostValue.agg128 := rfl

/-- The same for 64 columns. -/
theorem agg64_same : @Cert.ReferenceIdeal.RefValue.agg64 = @Cert.KernelIdeal.HostValue.agg64 := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, and both result buffers end at
    `pooled h (agg h) W2a b2a W2b b2b` with `h = hidden x (agg x) W1a b1a W1b b1b` of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v29),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  refine Eq.trans ?_ (Cert.KernelIdeal.NetValue.result m ρ c).symm
  obtain ⟨h0, h1, h2, h3, h4, h5, h6, h7, h8, h9⟩ := hagree c
  rw [h0, h1, h2, h3, h4, h5, h6, h7, h8, h9, agg128_same, agg64_same]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
